-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x512 : Shape := ⟨2, ![100000, 512]⟩
abbrev S50000x512 : Shape := ⟨2, ![50000, 512]⟩
abbrev S512x128 : Shape := ⟨2, ![512, 128]⟩
abbrev S_ : Shape := ⟨0, ![]⟩
abbrev S512x64 : Shape := ⟨2, ![512, 64]⟩
abbrev S512x1x64 : Shape := ⟨3, ![512, 1, 64]⟩
abbrev S1x512x64 : Shape := ⟨3, ![1, 512, 64]⟩
abbrev S512x512x64 : Shape := ⟨3, ![512, 512, 64]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S512x128 : S_.BroadcastsInDim S512x128 (![] : Fin 0 → Fin S512x128.rank)
  reducesTo_S512x128_S_d0_1 : S512x128.ReducesTo [0, 1] S_
  slices_S512x128_S512x64_0_0 : S512x128.Slices ![0, 0] S512x64
  slices_S512x128_S512x64_0_64 : S512x128.Slices ![0, 64] S512x64
  bcast_S512x64_S512x1x64_0_2 : S512x64.BroadcastsInDim S512x1x64 (![0, 2] : Fin 2 → Fin S512x1x64.rank)
  bcast_S512x64_S1x512x64_1_2 : S512x64.BroadcastsInDim S1x512x64 (![1, 2] : Fin 2 → Fin S1x512x64.rank)
  bcast_S512x1x64_S512x512x64_0_1_2 : S512x1x64.BroadcastsInDim S512x512x64 (![0, 1, 2] : Fin 3 → Fin S512x512x64.rank)
  bcast_S1x512x64_S512x512x64_0_1_2 : S1x512x64.BroadcastsInDim S512x512x64 (![0, 1, 2] : Fin 3 → Fin S512x512x64.rank)
  bcast_S_S512x512x64 : S_.BroadcastsInDim S512x512x64 (![] : Fin 0 → Fin S512x512x64.rank)
  reducesTo_S512x512x64_S_d0_1_2 : S512x512x64.ReducesTo [0, 1, 2] S_

variable [Facts]

def fn_part1 {F : FTy → Type} [FloatOps F] (main_arg4 : FVec F S512x128 .f32) (main_arg5 : FVec F S512x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x64 .f32 := (extractStridedSlice S512x64 ![0, 0] · slices_S512x128_S512x64_0_0) main_arg4
  let main_v20 : FVec F S512x64 .f32 := (extractStridedSlice S512x64 ![0, 64] · slices_S512x128_S512x64_0_64) main_arg4
  let main_v21 : FVec F S512x64 .f32 := (extractStridedSlice S512x64 ![0, 0] · slices_S512x128_S512x64_0_0) main_arg5
  let main_v22 : FVec F S512x64 .f32 := (extractStridedSlice S512x64 ![0, 64] · slices_S512x128_S512x64_0_64) main_arg5
  let main_v23 : FVec F S512x1x64 .f32 := broadcastInDim S512x1x64 ![0, 2] bcast_S512x64_S512x1x64_0_2 main_v20
  let main_v24 : FVec F S1x512x64 .f32 := broadcastInDim S1x512x64 ![1, 2] bcast_S512x64_S1x512x64_1_2 main_v22
  let main_v25 : FVec F S512x512x64 .f32 := broadcastInDim S512x512x64 ![0, 1, 2] bcast_S512x1x64_S512x512x64_0_1_2 main_v23
  let main_v26 : FVec F S512x512x64 .f32 := broadcastInDim S512x512x64 ![0, 1, 2] bcast_S1x512x64_S512x512x64_0_1_2 main_v24
  let main_v27 : FVec F S512x512x64 .f32 := addf main_v25 main_v26
  let main_cst_6 : FVec F S_ .f32 := constant S_ .f32 0x00000000#32
  let main_v28 : FVec F S512x512x64 .f32 := broadcastInDim S512x512x64 ![] bcast_S_S512x512x64 main_cst_6
  let main_v29 : IVec S512x512x64 1 := cmpf .ogt main_v27 main_v28
  let main_c_7 : IVec S_ 1 := constantI S_ 1 1#1
  let main_v30 : IVec S_ 1 := (fun x v => Host.reduce IntOp.andi x v reducesTo_S512x512x64_S_d0_1_2 h_S_) main_v29 main_c_7
  let main_v31 : IVec S_ 1 := andi main_v18 main_v30
  main_v31

def fn {F : FTy → Type} [FloatOps F] (main_arg0 : IVec S4096 32) (main_arg1 : IVec S4096 32) (main_arg2 : FVec F S100000x512 .f32) (main_arg3 : FVec F S50000x512 .f32) (main_arg4 : FVec F S512x128 .f32) (main_arg5 : FVec F S512x128 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S50000x512 .f32 := Host.absf main_arg3
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_v13 main_v16
-- ==== Kernel.lean ====
abbrev S4096 : Shape := ⟨1, ![4096]⟩
abbrev S100000x512 : Shape := ⟨2, ![100000, 512]⟩
abbrev S50000x512 : Shape := ⟨2, ![50000, 512]⟩
abbrev S512x128 : Shape := ⟨2, ![512, 128]⟩
abbrev S_ : Shape := ⟨0, ![]⟩
abbrev S4096x1 : Shape := ⟨2, ![4096, 1]⟩
abbrev S4096x512 : Shape := ⟨2, ![4096, 512]⟩
abbrev S512x64 : Shape := ⟨2, ![512, 64]⟩
abbrev S512x1x64 : Shape := ⟨3, ![512, 1, 64]⟩
abbrev S1x512x64 : Shape := ⟨3, ![1, 512, 64]⟩
abbrev S512x512x64 : Shape := ⟨3, ![512, 512, 64]⟩
abbrev S512x512 : Shape := ⟨2, ![512, 512]⟩
abbrev S512 : Shape := ⟨1, ![512]⟩
abbrev S512x1 : Shape := ⟨2, ![512, 1]⟩
abbrev S4096x4096 : Shape := ⟨2, ![4096, 4096]⟩
abbrev S1024x512 : Shape := ⟨2, ![1024, 512]⟩

abbrev nBuf : Space → Nat
  | .hbm => 78
  | .vmem => 12
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S100000x512, .f32⟩
  | .hbm, ⟨3, _⟩ => ⟨S50000x512, .f32⟩
  | .hbm, ⟨4, _⟩ => ⟨S512x128, .f32⟩
  | .hbm, ⟨5, _⟩ => ⟨S512x128, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x512, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x512, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x1x64, .f32⟩
  | .hbm, ⟨29, _⟩ => ⟨S1x512x64, .f32⟩
  | .hbm, ⟨30, _⟩ => ⟨S512x512x64, .f32⟩
  | .hbm, ⟨31, _⟩ => ⟨S512x512x64, .f32⟩
  | .hbm, ⟨32, _⟩ => ⟨S512x512x64, .f32⟩
  | .hbm, ⟨33, _⟩ => ⟨S512x1x64, .f32⟩
  | .hbm, ⟨34, _⟩ => ⟨S1x512x64, .f32⟩
  | .hbm, ⟨35, _⟩ => ⟨S512x512x64, .f32⟩
  | .hbm, ⟨36, _⟩ => ⟨S512x512x64, .f32⟩
  | .hbm, ⟨37, _⟩ => ⟨S512x512x64, .f32⟩
  | .hbm, ⟨38, _⟩ => ⟨S512x512x64, .f32⟩
  | .hbm, ⟨39, _⟩ => ⟨S_, .f32⟩
  | .hbm, ⟨40, _⟩ => ⟨S512x512, .f32⟩
  | .hbm, ⟨41, _⟩ => ⟨S512x512x64, .f32⟩
  | .hbm, ⟨42, _⟩ => ⟨S512x512x64, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S512, .f32⟩
  | .hbm, ⟨62, _⟩ => ⟨S512, .f32⟩
  | .hbm, ⟨63, _⟩ => ⟨S512x1, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S512, .f32⟩
  | .hbm, ⟨69, _⟩ => ⟨S512x1, .f32⟩
  | .hbm, ⟨70, _⟩ => ⟨S512x512, .f32⟩
  | .hbm, ⟨71, _⟩ => ⟨S512x512, .f32⟩
  | .hbm, ⟨72, _⟩ => ⟨S4096x512, .bf16⟩
  | .hbm, ⟨73, _⟩ => ⟨S4096x512, .bf16⟩
  | .hbm, ⟨74, _⟩ => ⟨S512x512, .bf16⟩
  | .hbm, ⟨75, _⟩ => ⟨S512x512, .bf16⟩
  | .hbm, ⟨76, _⟩ => ⟨S4096x4096, .f32⟩
  | .hbm, ⟨77, _⟩ => ⟨S4096x4096, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S512x128_S512x64_0_0 : S512x128.Slices ![0, 0] S512x64
  slices_S512x128_S512x64_0_64 : S512x128.Slices ![0, 64] S512x64
  bcast_S512x64_S512x1x64_0_2 : S512x64.BroadcastsInDim S512x1x64 (![0, 2] : Fin 2 → Fin S512x1x64.rank)
  bcast_S512x64_S1x512x64_1_2 : S512x64.BroadcastsInDim S1x512x64 (![1, 2] : Fin 2 → Fin S1x512x64.rank)
  bcast_S512x1x64_S512x512x64_0_1_2 : S512x1x64.BroadcastsInDim S512x512x64 (![0, 1, 2] : Fin 3 → Fin S512x512x64.rank)
  bcast_S1x512x64_S512x512x64_0_1_2 : S1x512x64.BroadcastsInDim S512x512x64 (![0, 1, 2] : Fin 3 → Fin S512x512x64.rank)
  reducesTo_S512x512x64_S512x512_d2 : S512x512x64.ReducesTo [2] S512x512
  h_S_ : 0 < S_.numel
  bcast_S_S512x512 : S_.BroadcastsInDim S512x512 (![] : Fin 0 → Fin S512x512.rank)
  reducesTo_S512x512_S512_d1 : S512x512.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  gather_S100000x512_S4096x1_S4096x512_1_0_n_n_0_1_1512_wf : GatherDims.WF S100000x512 S4096x1 S4096x512 [1] [0] [] [0] [] 1 ![1, 512]
  gather_S50000x512_S4096x1_S4096x512_1_0_n_n_0_1_1512_wf : GatherDims.WF S50000x512 S4096x1 S4096x512 [1] [0] [] [0] [] 1 ![1, 512]
  dot_S1024x512_S512x512_S1024x512_1_0_0_1_n_n_wf : DotDims.WF S1024x512 S512x512 S1024x512 [1] [0] [0] [1] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x4096.size a
  hwx0_5 : ∀ i : grid0.Coords, EltTy.bits .f32 = 32 ∨ (Rect.block (s := S4096x4096) S1024x512.size (cc0_transform_5 i) (hinb0_5 i)).WholeWords (EltTy.packing .f32)

variable [Facts₀]

def gather_S100000x512_S4096x1_S4096x512_1_0_n_n_0_1_1512 : GatherDims S100000x512 S4096x1 S4096x512 where
  offsetDims := [1]
  collapsedSliceDims := [0]
  operandBatchingDims := []
  startIndicesBatchingDims := []
  startIndexMap := [0]
  indexVectorDim := 1
  sliceSizes := ![1, 512]
  wf := gather_S100000x512_S4096x1_S4096x512_1_0_n_n_0_1_1512_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v54) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v57) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58_1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096 : Shape := ⟨1, ![4096]⟩
abbrev S100000x512 : Shape := ⟨2, ![100000, 512]⟩
abbrev S50000x512 : Shape := ⟨2, ![50000, 512]⟩
abbrev S512x128 : Shape := ⟨2, ![512, 128]⟩
abbrev S_ : Shape := ⟨0, ![]⟩
abbrev S4096x1 : Shape := ⟨2, ![4096, 1]⟩
abbrev S4096x512 : Shape := ⟨2, ![4096, 512]⟩
abbrev S512x64 : Shape := ⟨2, ![512, 64]⟩
abbrev S512x1x64 : Shape := ⟨3, ![512, 1, 64]⟩
abbrev S1x512x64 : Shape := ⟨3, ![1, 512, 64]⟩
abbrev S512x512x64 : Shape := ⟨3, ![512, 512, 64]⟩
abbrev S512x512 : Shape := ⟨2, ![512, 512]⟩
abbrev S512x4096 : Shape := ⟨2, ![512, 4096]⟩
abbrev S4096x4096 : Shape := ⟨2, ![4096, 4096]⟩
abbrev S512 : Shape := ⟨1, ![512]⟩
abbrev S512x1 : Shape := ⟨2, ![512, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S100000x512, .f32⟩
  | .hbm, ⟨3, _⟩ => ⟨S50000x512, .f32⟩
  | .hbm, ⟨4, _⟩ => ⟨S512x128, .f32⟩
  | .hbm, ⟨5, _⟩ => ⟨S512x128, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x512, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x512, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x1x64, .f32⟩
  | .hbm, ⟨29, _⟩ => ⟨S1x512x64, .f32⟩
  | .hbm, ⟨30, _⟩ => ⟨S512x512x64, .f32⟩
  | .hbm, ⟨31, _⟩ => ⟨S512x512x64, .f32⟩
  | .hbm, ⟨32, _⟩ => ⟨S512x512x64, .f32⟩
  | .hbm, ⟨33, _⟩ => ⟨S512x1x64, .f32⟩
  | .hbm, ⟨34, _⟩ => ⟨S1x512x64, .f32⟩
  | .hbm, ⟨35, _⟩ => ⟨S512x512x64, .f32⟩
  | .hbm, ⟨36, _⟩ => ⟨S512x512x64, .f32⟩
  | .hbm, ⟨37, _⟩ => ⟨S512x512x64, .f32⟩
  | .hbm, ⟨38, _⟩ => ⟨S512x512x64, .f32⟩
  | .hbm, ⟨39, _⟩ => ⟨S_, .f32⟩
  | .hbm, ⟨40, _⟩ => ⟨S512x512, .f32⟩
  | .hbm, ⟨41, _⟩ => ⟨S512x512x64, .f32⟩
  | .hbm, ⟨42, _⟩ => ⟨S512x512x64, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x4096, .f32⟩
  | .hbm, ⟨55, _⟩ => ⟨S512x4096, .f32⟩
  | .hbm, ⟨56, _⟩ => ⟨S4096x4096, .f32⟩
  | .hbm, ⟨57, _⟩ => ⟨S4096x4096, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S_, .f32⟩
  | .hbm, ⟨63, _⟩ => ⟨S512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512x1, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512, .f32⟩
  | .hbm, ⟨73, _⟩ => ⟨S512x1, .f32⟩
  | .hbm, ⟨74, _⟩ => ⟨S512x512, .f32⟩
  | .hbm, ⟨75, _⟩ => ⟨S512x512, .f32⟩
  | .hbm, ⟨76, _⟩ => ⟨S512x4096, .f32⟩
  | .hbm, ⟨77, _⟩ => ⟨S512x4096, .f32⟩
  | .hbm, ⟨78, _⟩ => ⟨S4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S512x128_S512x64_0_0 : S512x128.Slices ![0, 0] S512x64
  slices_S512x128_S512x64_0_64 : S512x128.Slices ![0, 64] S512x64
  bcast_S512x64_S512x1x64_0_2 : S512x64.BroadcastsInDim S512x1x64 (![0, 2] : Fin 2 → Fin S512x1x64.rank)
  bcast_S512x64_S1x512x64_1_2 : S512x64.BroadcastsInDim S1x512x64 (![1, 2] : Fin 2 → Fin S1x512x64.rank)
  bcast_S512x1x64_S512x512x64_0_1_2 : S512x1x64.BroadcastsInDim S512x512x64 (![0, 1, 2] : Fin 3 → Fin S512x512x64.rank)
  bcast_S1x512x64_S512x512x64_0_1_2 : S1x512x64.BroadcastsInDim S512x512x64 (![0, 1, 2] : Fin 3 → Fin S512x512x64.rank)
  reducesTo_S512x512x64_S512x512_d2 : S512x512x64.ReducesTo [2] S512x512
  h_S_ : 0 < S_.numel
  bcast_S_S512x512 : S_.BroadcastsInDim S512x512 (![] : Fin 0 → Fin S512x512.rank)
  transposes_S4096x512_S512x4096_1_0 : S4096x512.Transposes [1, 0] S512x4096
  reducesTo_S512x512_S512_d1 : S512x512.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  gather_S100000x512_S4096x1_S4096x512_1_0_n_n_0_1_1512_wf : GatherDims.WF S100000x512 S4096x1 S4096x512 [1] [0] [] [0] [] 1 ![1, 512]
  gather_S50000x512_S4096x1_S4096x512_1_0_n_n_0_1_1512_wf : GatherDims.WF S50000x512 S4096x1 S4096x512 [1] [0] [] [0] [] 1 ![1, 512]
  dot_S512x512_S512x4096_S512x4096_1_0_0_1_n_n_wf : DotDims.WF S512x512 S512x4096 S512x4096 [1] [0] [0] [1] [] []
  dot_S4096x512_S512x4096_S4096x4096_1_0_0_1_n_n_wf : DotDims.WF S4096x512 S512x4096 S4096x4096 [1] [0] [0] [1] [] []

variable [Facts₀]

def gather_S100000x512_S4096x1_S4096x512_1_0_n_n_0_1_1512 : GatherDims S100000x512 S4096x1 S4096x512 where
  offsetDims := [1]
  collapsedSliceDims := [0]
  operandBatchingDims := []
  startIndicesBatchingDims := []
  startIndexMap := [0]
  indexVectorDim := 1
  sliceSizes := ![1, 512]
  wf := gather_S100000x512_S4096x1_S4096x512_1_0_n_n_0_1_1512_wf
def gather_S50000x512_S4096x1_S4096x512_1_0_n_n_0_1_1512 : GatherDims S50000x512 S4096x1 S4096x512 where
  offsetDims := [1]
  collapsedSliceDims := [0]
  operandBatchingDims := []
  startIndicesBatchingDims := []
  startIndexMap := [0]
  indexVectorDim := 1
  sliceSizes := ![1, 512]
  wf := gather_S50000x512_S4096x1_S4096x512_1_0_n_n_0_1_1512_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KernelPieces.lean ====
/-
  What one run of the kernel body leaves behind, as values of the blocks it loaded.

  At a point of the first column block (case A) the body computes the two scratch blocks from the m1 row block and gm, tp,
  stores them, reads them back and stores the two output blocks; at any other point (case B) it leaves the scratch blocks
  as the point before left them and stores the two output blocks from them.  Each store covers its whole buffer, so what a
  buffer holds afterwards is the stored value.
-/
import proofs.«134535_j7017976562076_1_alg».proof.Proof.Gen.KernelIdeal.Frame
import Idealize.ShloMosaic.Lib.Pipeline.Value
import Idealize.ShloMosaic.Lib.Tactic

noncomputable section

namespace Cert.KernelPieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x512 .bf16) (harg9 : arg9.IsWhole)

/-- Case B, first output: log(scratch₀ · m2_blockᵀ) of the scratch the point before left. -/
theorem out4_B (hc0 : ¬cond0_0 i) (x0 : Vec F S1024x512 .bf16) (x1 x2 x3 : Vec F S512x512 .bf16) (xs0 xs1 : Vec F S1024x512 .bf16) :
    out0_B_4 c i arg2 harg2 arg3 harg3 arg4 harg4 arg5 harg5 arg6 harg6 arg7 harg7 arg8 harg8 arg9 harg9 hc0 x0 x1 x2 x3 xs0 xs1 = k0_pay4 xs0 x1 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg3.read_unread, harg8.read_unread, View.ld_unit_zero (S := S1024x512) hz, View.ld_unit_zero (S := S512x512) hz]

/-- Case B, second output: scratch₁ · m2_blockᵀ of the scratch the point before left. -/
theorem out5_B (hc0 : ¬cond0_0 i) (x0 : Vec F S1024x512 .bf16) (x1 x2 x3 : Vec F S512x512 .bf16) (xs0 xs1 : Vec F S1024x512 .bf16) :
    out0_B_5 c i arg2 harg2 arg3 harg3 arg4 harg4 arg5 harg5 arg6 harg6 arg7 harg7 arg8 harg8 arg9 harg9 hc0 x0 x1 x2 x3 xs0 xs1 = k0_pay3 xs1 x1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz]
  simp only [View.readAt_eq_ld, harg3.read_unread, harg9.read_unread, View.ld_unit_zero (S := S1024x512) hz, View.ld_unit_zero (S := S512x512) hz]

/-- Case A, first scratch block: the m1 row block times gm. -/
theorem scratch0_A (hc0 : cond0_0 i) (x0 : Vec F S1024x512 .bf16) (x1 x2 x3 : Vec F S512x512 .bf16) :
    sout0_A_0 c i arg2 harg2 arg3 harg3 arg4 harg4 arg5 harg5 arg6 harg6 arg7 harg7 arg8 harg8 arg9 harg9 hc0 x0 x1 x2 x3 = k0_pay1 x0 x2 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz]
  simp only [View.readAt_eq_ld, harg2.read_unread, harg4.read_unread, View.ld_unit_zero (S := S1024x512) hz, View.ld_unit_zero (S := S512x512) hz]

/-- Case A, second scratch block: the m1 row block times tp. -/
theorem scratch1_A (hc0 : cond0_0 i) (x0 : Vec F S1024x512 .bf16) (x1 x2 x3 : Vec F S512x512 .bf16) :
    sout0_A_1 c i arg2 harg2 arg3 harg3 arg4 harg4 arg5 harg5 arg6 harg6 arg7 harg7 arg8 harg8 arg9 harg9 hc0 x0 x1 x2 x3 = k0_pay2 x0 x3 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz]
  simp only [View.readAt_eq_ld, harg2.read_unread, harg5.read_unread, View.ld_unit_zero (S := S1024x512) hz, View.ld_unit_zero (S := S512x512) hz]

/-- Case A, first output: log(scratch₀ · m2_blockᵀ) of the scratch block just stored. -/
theorem out4_A (hc0 : cond0_0 i) (x0 : Vec F S1024x512 .bf16) (x1 x2 x3 : Vec F S512x512 .bf16) :
    out0_A_4 c i arg2 harg2 arg3 harg3 arg4 harg4 arg5 harg5 arg6 harg6 arg7 harg7 arg8 harg8 arg9 harg9 hc0 x0 x1 x2 x3 = k0_pay4 (k0_pay1 x0 x2) x1 := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz, View.readCov_unit_zero (S := S1024x512) _ hz]
  simp only [View.readAt_eq_ld, harg2.read_unread, harg3.read_unread, harg4.read_unread, View.ld_unit_zero (S := S1024x512) hz, View.ld_unit_zero (S := S512x512) hz]

/-- Case A, second output: scratch₁ · m2_blockᵀ of the scratch block just stored. -/
theorem out5_A (hc0 : cond0_0 i) (x0 : Vec F S1024x512 .bf16) (x1 x2 x3 : Vec F S512x512 .bf16) :
    out0_A_5 c i arg2 harg2 arg3 harg3 arg4 harg4 arg5 harg5 arg6 harg6 arg7 harg7 arg8 harg8 arg9 harg9 hc0 x0 x1 x2 x3 = k0_pay3 (k0_pay2 x0 x3) x1 := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz, View.readCov_unit_zero (S := S1024x512) _ hz]
  simp only [View.readAt_eq_ld, harg2.read_unread, harg3.read_unread, harg5.read_unread, View.ld_unit_zero (S := S1024x512) hz, View.ld_unit_zero (S := S512x512) hz]

end Cert.KernelPieces

end
-- ==== Proof.KernelInv.lean ====
/-
  The carried scratch blocks across the grid.

  The grid is 4 row blocks by 8 column blocks, visited row block by row block: point n is column block n mod 8 of row block
  n div 8.  The two scratch blocks are written at the first column block of each row block and kept through the other
  seven, so after any point n they hold the products of row block n div 8 of m1 with gm and with tp — the blocks the point
  8·(n div 8) loaded.  By induction on the point.  The two output blocks a point stores are then
  log(scratch₀ · m2_blockᵀ) and scratch₁ · m2_blockᵀ of those.
-/
import proofs.«134535_j7017976562076_1_alg».proof.Proof.Gen.KernelIdeal.Value
import proofs.«134535_j7017976562076_1_alg».proof.Proof.KernelPieces

noncomputable section

namespace Cert.KernelInv

open Idealize.ShloMosaic Idealize.ShloMosaic.TcCoe Idealize.SL.Sem
open Cert.KernelIdeal Cert.KernelIdeal.Gen Cert.KernelPieces

variable {F : FTy → Type} [FloatOps F]
variable (m : (ℓ : Loc nD τ sig) → Buf (Elt F) ℓ)

/-- The first point of the row block point `n` lies in. -/
def rowStart (n : ℕ) (h : n < cfg0.N) : Fin cfg0.N :=
  ⟨8 * (n / 8), by have hN : cfg0.N = 32 := N_0; omega⟩

/-- The first scratch block after point `n`: the row block of m1 times gm, as the row block's first point loaded them. -/
def scr0 (c : Dev nD) (n : ℕ) (h : n < cfg0.N) : Vec F S1024x512 .bf16 :=
  k0_pay1 (iblk m c 0 (rowStart n h)) (iblk m c 2 (rowStart n h))

/-- The second scratch block after point `n`: the row block of m1 times tp. -/
def scr1 (c : Dev nD) (n : ℕ) (h : n < cfg0.N) : Vec F S1024x512 .bf16 :=
  k0_pay2 (iblk m c 0 (rowStart n h)) (iblk m c 3 (rowStart n h))

theorem scr0_congr (c : Dev nD) {n n' : ℕ} (h : n < cfg0.N) (h' : n' < cfg0.N) (e : rowStart n h = rowStart n' h') :
    scr0 m c n h = scr0 m c n' h' := by unfold scr0; rw [e]

theorem scr1_congr (c : Dev nD) {n n' : ℕ} (h : n < cfg0.N) (h' : n' < cfg0.N) (e : rowStart n h = rowStart n' h') :
    scr1 m c n h = scr1 m c n' h' := by unfold scr1; rw [e]

/-- At the first column block the scratch blocks are what this very point computed. -/
theorem scr_at_start (c : Dev nD) (t : Fin cfg0.N) (h0 : t.val % 8 = 0) :
    scr0 m c t.val t.isLt = k0_pay1 (iblk m c 0 t) (iblk m c 2 t) ∧ scr1 m c t.val t.isLt = k0_pay2 (iblk m c 0 t) (iblk m c 3 t) := by
  have e : rowStart t.val t.isLt = t := Fin.ext (by show 8 * (t.val / 8) = t.val; omega)
  unfold scr0 scr1
  rw [e]
  exact ⟨rfl, rfl⟩

/-- At a first column block the scratch blocks are the ones this point stored. -/
theorem scratch_at_start (c : Dev nD) (t : Fin cfg0.N) (h0 : t.val % 8 = 0) :
    (outsAt0 m c t.val t.isLt).2.2.1 = scr0 m c t.val t.isLt ∧ (outsAt0 m c t.val t.isLt).2.2.2 = scr1 m c t.val t.isLt := by
  have hS0 : (outsAt0 m c t.val t.isLt).2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) := by
    simp only [outsAt0_A m c t h0]
  have hS1 : (outsAt0 m c t.val t.isLt).2.2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) := by
    simp only [outsAt0_A m c t h0]
  have e0 := scratch0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  have e1 := scratch1_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
  have s := scr_at_start m c t h0
  exact ⟨hS0.trans (e0.trans s.1.symm), hS1.trans (e1.trans s.2.symm)⟩

/-- At any other column block the scratch blocks are the ones the point before left. -/
theorem scratch_carried (c : Dev nD) (t : Fin cfg0.N) (h0 : ¬t.val % 8 = 0) :
    (outsAt0 m c t.val t.isLt).2.2.1 = (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  constructor
  · simp only [outsAt0_B m c t h0, sout0_B_0]
  · simp only [outsAt0_B m c t h0, sout0_B_1]

/-- What the two scratch blocks hold after point `n`. -/
theorem scratch_eq (c : Dev nD) : ∀ (n : ℕ) (h : n < cfg0.N),
    (outsAt0 m c n h).2.2.1 = scr0 m c n h ∧ (outsAt0 m c n h).2.2.2 = scr1 m c n h
  | 0, h => scratch_at_start m c ⟨0, h⟩ (Nat.zero_mod 8)
  | n + 1, h => by
    have hN : cfg0.N = 32 := N_0
    by_cases h0 : (n + 1) % 8 = 0
    · exact scratch_at_start m c ⟨n + 1, h⟩ h0
    · have hn : n < cfg0.N := Nat.lt_of_succ_lt h
      have e : rowStart n hn = rowStart (n + 1) h := Fin.ext (by
        show 8 * (n / 8) = 8 * ((n + 1) / 8)
        omega)
      have ih := scratch_eq c n hn
      have hc := scratch_carried m c ⟨n + 1, h⟩ h0
      exact ⟨hc.1.trans (ih.1.trans (scr0_congr m c hn h e)), hc.2.trans (ih.2.trans (scr1_congr m c hn h e))⟩

/-- What the two output blocks hold after point `t`: log(scratch₀ · m2_blockᵀ) and scratch₁ · m2_blockᵀ. -/
theorem outs_eq (c : Dev nD) (t : Fin cfg0.N) :
    (outsAt0 m c t.val t.isLt).1 = k0_pay4 (scr0 m c t.val t.isLt) (iblk m c 1 t)
    ∧ (outsAt0 m c t.val t.isLt).2.1 = k0_pay3 (scr1 m c t.val t.isLt) (iblk m c 1 t) := by
  have hN : cfg0.N = 32 := N_0
  by_cases h0 : t.val % 8 = 0
  · have hO4 : (outsAt0 m c t.val t.isLt).1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) := by
      simp only [outsAt0_A m c t h0]
    have hO5 : (outsAt0 m c t.val t.isLt).2.1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) := by
      simp only [outsAt0_A m c t h0]
    have e4 := out4_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
    have e5 := out5_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)
    have s := scr_at_start m c t h0
    exact ⟨hO4.trans (e4.trans (congrArg (fun x => k0_pay4 x (iblk m c 1 t)) s.1.symm)),
      hO5.trans (e5.trans (congrArg (fun x => k0_pay3 x (iblk m c 1 t)) s.2.symm))⟩
  · have hp : t.val - 1 < cfg0.N := Nat.lt_of_le_of_lt (Nat.sub_le _ _) t.isLt
    have e : rowStart (t.val - 1) hp = rowStart t.val t.isLt := Fin.ext (by
      show 8 * ((t.val - 1) / 8) = 8 * (t.val / 8)
      have := t.isLt
      omega)
    have ih := scratch_eq m c (t.val - 1) hp
    have hO4 : (outsAt0 m c t.val t.isLt).1 = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 := by
      simp only [outsAt0_B m c t h0]
    have hO5 : (outsAt0 m c t.val t.isLt).2.1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 := by
      simp only [outsAt0_B m c t h0]
    have e4 := out4_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
    have e5 := out5_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
    exact ⟨hO4.trans (e4.trans (congrArg (fun x => k0_pay4 x (iblk m c 1 t)) (ih.1.trans (scr0_congr m c hp t.isLt e)))),
      hO5.trans (e5.trans (congrArg (fun x => k0_pay3 x (iblk m c 1 t)) (ih.2.trans (scr1_congr m c hp t.isLt e))))⟩

end Cert.KernelInv

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibNtMatmul.lean ====
/-
  A product against a transposed right operand, read at an entry, at the extended reals.

  A kernel's `q · kᵀ` prints as a matrix product whose dimension numbers contract the LAST axis of both operands
  (rows of the left against rows of the right).  Accumulated into the zero block, its entry (a, b) is the sum over the
  shared axis of the products of the entries: the accumulator adds nothing and, on the extended reals, nothing is rounded
  and no order of the summands is left.  Generic in the three extents, the two operand formats and the precision key.
-/
import Idealize.ShloMosaic.Lib.ValueIdx
import Idealize.ShloMosaic.PureOps.Ideal.Laws

noncomputable section

open scoped BigOperators

namespace Cert.LibNtMatmul

open Idealize.ShloMosaic Idealize.ShloMosaic.ValueIdx

/-- `A · Bᵀ` of an m×k block by an n×k block into the zero block: entry `(a, b)` is `Σ_c A(a,c)·B(b,c)`. -/
theorem matmul_nt_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibNtMatmul

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibChainAssoc.lean ====
/-
  Reassociating a chain of two matrix products on the extended reals.

  (A·G)·Bᵀ and A·(G·Bᵀ) are the same matrix when every entry is a real number: entry by entry both are the double sum
  Σ_j Σ_k A(r,j)·G(j,k)·B(c,k).  On the extended reals this needs the entries real — a product distributes over a sum only
  away from the infinities — and with real entries it is the identity in ℝ carried across the coercion.
-/
import proofs.«134535_j7017976562076_1_alg».proof.Proof.LibRealClosed

noncomputable section

open scoped BigOperators

namespace Cert.LibChainAssoc

open Cert.LibRealClosed

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries, Σ_k (Σ_j a_j·g_jk)·b_k = Σ_j a_j·(Σ_k g_jk·b_k): one row of (A·G)·Bᵀ against A·(G·Bᵀ). -/
theorem sum_chain_assoc {J K : Type*} [Fintype J] [Fintype K] (a : J → EReal) (g : J → K → EReal) (b : K → EReal)
    (ha : ∀ j, IsReal (a j)) (hg : ∀ j k, IsReal (g j k)) (hb : ∀ k, IsReal (b k)) :
    ∑ k, (∑ j, a j * g j k) * b k = ∑ j, a j * ∑ k, g j k * b k := by
  choose a' ha' using ha
  choose g' hg' using hg
  choose b' hb' using hb
  have hL : ∑ k, (∑ j, a j * g j k) * b k = ((∑ k, (∑ j, a' j * g' j k) * b' k : ℝ) : EReal) := by
    rw [coe_sum]
    refine Finset.sum_congr rfl fun k _ => ?_
    rw [EReal.coe_mul, coe_sum, hb']
    congr 1
    refine Finset.sum_congr rfl fun j _ => ?_
    rw [EReal.coe_mul, ha', hg']
  have hR : ∑ j, a j * ∑ k, g j k * b k = ((∑ j, a' j * ∑ k, g' j k * b' k : ℝ) : EReal) := by
    rw [coe_sum]
    refine Finset.sum_congr rfl fun j _ => ?_
    rw [EReal.coe_mul, coe_sum, ha']
    congr 1
    refine Finset.sum_congr rfl fun k _ => ?_
    rw [EReal.coe_mul, hg', hb']
  rw [hL, hR]
  congr 1
  simp only [Finset.sum_mul, Finset.mul_sum]
  rw [Finset.sum_comm]
  exact Finset.sum_congr rfl fun j _ => Finset.sum_congr rfl fun k _ => mul_assoc _ _ _

end Cert.LibChainAssoc

end
-- ==== Proof.ChainSpec.lean ====
/-
  The two groupings of the matrix chain, as whole-array functions, and that they agree on real entries.

  With m1, m2 of shape [4096, 512] and g of shape [512, 512], entry (r, c) of (m1·g)·m2ᵀ is
  Σ_k (Σ_j m1(r,j)·g(j,k))·m2(c,k) and entry (r, c) of m1·(g·m2ᵀ) is Σ_j m1(r,j)·(Σ_k g(j,k)·m2(c,k)).
-/
import proofs.«134535_j7017976562076_1_alg».proof.Proof.LibRealClosed
import proofs.«134535_j7017976562076_1_alg».proof.Proof.LibChainAssoc
import Idealize.ShloMosaic.Lib.ValueIdx

noncomputable section

open scoped BigOperators

namespace Cert.ChainSpec

open Idealize.ShloMosaic Idealize.ShloMosaic.ValueIdx Cert.LibRealClosed

abbrev SB : Shape := ⟨2, ![4096, 512]⟩
abbrev SG : Shape := ⟨2, ![512, 512]⟩
abbrev SO : Shape := ⟨2, ![4096, 4096]⟩

/-- Entry (r, c) of (m1·g)·m2ᵀ: the row of m1·g against the row of m2. -/
def leftChain (M1 : SB.Idx → EReal) (G : SG.Idx → EReal) (M2 : SB.Idx → EReal) (i : SO.Idx) : EReal :=
  ∑ k : Fin 512, (∑ j : Fin 512, M1 (ix2 (i 0) j) * G (ix2 j k)) * M2 (ix2 (i 1) k)

/-- Entry (r, c) of m1·(g·m2ᵀ): the row of m1 against the column of g·m2ᵀ. -/
def rightChain (M1 : SB.Idx → EReal) (G : SG.Idx → EReal) (M2 : SB.Idx → EReal) (i : SO.Idx) : EReal :=
  ∑ j : Fin 512, M1 (ix2 (i 0) j) * ∑ k : Fin 512, G (ix2 j k) * M2 (ix2 (i 1) k)

/-- On real entries the two groupings are one matrix. -/
theorem leftChain_eq_rightChain (M1 : SB.Idx → EReal) (G : SG.Idx → EReal) (M2 : SB.Idx → EReal)
    (h1 : ∀ i, IsReal (M1 i)) (hg : ∀ i, IsReal (G i)) (h2 : ∀ i, IsReal (M2 i)) :
    leftChain M1 G M2 = rightChain M1 G M2 :=
  funext fun i => Cert.LibChainAssoc.sum_chain_assoc (fun j : Fin 512 => M1 (ix2 (i 0) j)) (fun (j k : Fin 512) => G (ix2 j k))
    (fun k : Fin 512 => M2 (ix2 (i 1) k)) (fun _ => h1 _) (fun _ _ => hg _) (fun _ => h2 _)

end Cert.ChainSpec

end
-- ==== Proof.KernelPay.lean ====
/-
  The kernel body's four stored values, read at an entry, on the extended reals.

  At a grid point's first column block the body stores into its two carried scratch blocks the products of the row block of
  m1 with gm and with tp (a change to a narrower float format is the identity here); at every point it stores
  log(scratch₀ · m2_blockᵀ) and scratch₁ · m2_blockᵀ.  Entry by entry these are finite sums of products.
-/
import proofs.«134535_j7017976562076_1_alg».proof.Proof.Gen.KernelIdeal.Skeleton
import proofs.«134535_j7017976562076_1_alg».proof.Proof.LibPlainMatmul
import proofs.«134535_j7017976562076_1_alg».proof.Proof.LibNtMatmul
import proofs.«134535_j7017976562076_1_alg».proof.Proof.ChainSpec
import Idealize.ShloMosaic.Lib.Pipeline.Value
import Idealize.ShloMosaic.Lib.ValueIdx

noncomputable section

open scoped BigOperators

namespace Cert.KernelPay

open Idealize.ShloMosaic Idealize.ShloMosaic.ValueIdx Cert.KernelIdeal Cert.KernelIdeal.Gen

/-- The first scratch block: (m1 rows · gm)(a, k) = Σ_j m1(a, j)·gm(j, k). -/
theorem scratch0_apply (x0 : Vec Ideal S1024x512 .bf16) (x2 : Vec Ideal S512x512 .bf16) (a : Fin 1024) (k : Fin 512) :
    k0_pay1 (F := Ideal) x0 x2 (ix2 a k) = ∑ j : Fin 512, x0 (ix2 a j) * x2 (ix2 j k) := by
  unfold k0_pay1
  simp only [shapeCast_self]
  exact Cert.LibPlainMatmul.matmul_plain_zero_apply (φ₁ := .bf16) (φ₂ := .bf16) none x0 x2 a k

/-- The second scratch block: (m1 rows · tp)(a, k) = Σ_j m1(a, j)·tp(j, k). -/
theorem scratch1_apply (x0 : Vec Ideal S1024x512 .bf16) (x3 : Vec Ideal S512x512 .bf16) (a : Fin 1024) (k : Fin 512) :
    k0_pay2 (F := Ideal) x0 x3 (ix2 a k) = ∑ j : Fin 512, x0 (ix2 a j) * x3 (ix2 j k) := by
  unfold k0_pay2
  simp only [shapeCast_self]
  exact Cert.LibPlainMatmul.matmul_plain_zero_apply (φ₁ := .bf16) (φ₂ := .bf16) none x0 x3 a k

/-- The second output block: (scratch₁ · m2_blockᵀ)(a, b) = Σ_k scratch₁(a, k)·m2(b, k). -/
theorem out5_apply (xs1 : Vec Ideal S1024x512 .bf16) (x1 : Vec Ideal S512x512 .bf16) (a : Fin 1024) (b : Fin 512) :
    k0_pay3 (F := Ideal) xs1 x1 (ix2 a b) = ∑ k : Fin 512, xs1 (ix2 a k) * x1 (ix2 b k) := by
  unfold k0_pay3
  simp only [shapeCast_self]
  exact Cert.LibNtMatmul.matmul_nt_zero_apply (φ₁ := .bf16) (φ₂ := .bf16) none xs1 x1 a b

/-- The first output block: log of (scratch₀ · m2_blockᵀ)(a, b). -/
theorem out4_apply (xs0 : Vec Ideal S1024x512 .bf16) (x1 : Vec Ideal S512x512 .bf16) (a : Fin 1024) (b : Fin 512) :
    k0_pay4 (F := Ideal) xs0 x1 (ix2 a b) = Ideal.log (∑ k : Fin 512, xs0 (ix2 a k) * x1 (ix2 b k)) := by
  unfold k0_pay4
  simp only [shapeCast_self]
  exact congrArg Ideal.log (Cert.LibNtMatmul.matmul_nt_zero_apply (φ₁ := .bf16) (φ₂ := .bf16) none xs0 x1 a b)

open Cert.ChainSpec

/-- An entry of the first output block, when the loaded blocks are rows of whole arrays A, G, B: the logarithm of the
    left-grouped chain's entry. -/
theorem out4_point (x0 : Vec Ideal S1024x512 .bf16) (x1 x2 : Vec Ideal S512x512 .bf16) (A B : SB.Idx → EReal) (G : SG.Idx → EReal)
    (a : Fin 1024) (b : Fin 512) (i : SO.Idx) (h0 : ∀ j : Fin 512, x0 (ix2 a j) = A (ix2 (i 0) j))
    (h1 : ∀ k : Fin 512, x1 (ix2 b k) = B (ix2 (i 1) k)) (h2 : ∀ j k : Fin 512, x2 (ix2 j k) = G (ix2 j k)) :
    k0_pay4 (F := Ideal) (k0_pay1 (F := Ideal) x0 x2) x1 (ix2 a b) = Ideal.log (leftChain A G B i) := by
  rw [out4_apply]
  simp only [scratch0_apply, h0, h1, h2]
  rfl

/-- An entry of the second output block: the left-grouped chain's entry. -/
theorem out5_point (x0 : Vec Ideal S1024x512 .bf16) (x1 x3 : Vec Ideal S512x512 .bf16) (A B : SB.Idx → EReal) (G : SG.Idx → EReal)
    (a : Fin 1024) (b : Fin 512) (i : SO.Idx) (h0 : ∀ j : Fin 512, x0 (ix2 a j) = A (ix2 (i 0) j))
    (h1 : ∀ k : Fin 512, x1 (ix2 b k) = B (ix2 (i 1) k)) (h3 : ∀ j k : Fin 512, x3 (ix2 j k) = G (ix2 j k)) :
    k0_pay3 (F := Ideal) (k0_pay2 (F := Ideal) x0 x3) x1 (ix2 a b) = leftChain A G B i := by
  rw [out5_apply]
  simp only [scratch1_apply, h0, h1, h3]
  rfl

end Cert.KernelPay

end
-- ==== Proof.KernelValue.lean ====
/-
  The kernel's two result arrays after its run, each as one whole-array function.

  The grid is 4 row blocks of 1024 rows by 8 column blocks of 512 columns; point t is row block t div 8, column block
  t mod 8.  Its m1 block is rows 1024·(t div 8) + a of m1, its m2 block rows 512·(t mod 8) + b of m2, its gm and tp blocks the
  whole matrices; it writes back block (t div 8, t mod 8) of each result.  The scratch blocks a point reads are the products
  of the WHOLE row block of m1 with gm and tp, so what it writes back is block t of
  log((m1·gm)·m2ᵀ) and of (m1·tp)·m2ᵀ.  The 32 blocks tile both results, so each result array is that function everywhere.
-/
import proofs.«134535_j7017976562076_1_alg».proof.Proof.Gen.KernelIdeal.Value
import proofs.«134535_j7017976562076_1_alg».proof.Proof.KernelInv
import proofs.«134535_j7017976562076_1_alg».proof.Proof.KernelPay
import proofs.«134535_j7017976562076_1_alg».proof.Proof.ChainSpec
import Idealize.ShloMosaic.Lib.Pipeline.Value
import Idealize.ShloMosaic.Lib.ValueIdx

set_option maxRecDepth 16384

noncomputable section

open scoped BigOperators

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelInv Cert.KernelPay Cert.ChainSpec

variable (m : (ℓ : Loc nD τ sig) → Buf (Elt Ideal) ℓ) (ρ : Dev nD → PrngReg)

/-- The four arrays the call stages, as the region finds them. -/
abbrev stagedM1 (c : Dev nD) : SB.Idx → EReal := V m c main_v54
abbrev stagedM2 (c : Dev nD) : SB.Idx → EReal := V m c main_v55
abbrev stagedGm (c : Dev nD) : SG.Idx → EReal := V m c main_v56
abbrev stagedTp (c : Dev nD) : SG.Idx → EReal := V m c main_v57

/-- The first result: log((m1·gm)·m2ᵀ), entry by entry. -/
def logChain (c : Dev nD) : S4096x4096.Idx → EReal :=
  fun i => Ideal.log (leftChain (stagedM1 m c) (stagedGm m c) (stagedM2 m c) i)

/-- The second result: (m1·tp)·m2ᵀ, entry by entry. -/
def tpChain (c : Dev nD) : S4096x4096.Idx → EReal :=
  leftChain (stagedM1 m c) (stagedTp m c) (stagedM2 m c)

/-- The printed index maps over the grid: m1's block follows the row block, m2's the column block, gm and tp stay, and
    each result's block is (row block, column block). -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = t.val % 8
    ∧ win0_5.index t (0 : Fin 2) = t.val / 8 ∧ win0_5.index t (1 : Fin 2) = t.val % 8 :=
  (by decide +kernel : ∀ t : Fin grid0.N, _)

/-- Row `a` of point `t`'s m1 block is row 1024·(t div 8) + a of m1. -/
theorem blk_m1 (c : Dev nD) (t : Fin cfg0.N) (a : Fin 1024) (j : Fin 512) (r : Fin 4096) (hr : r.val = t.val / 8 * 1024 + a.val) :
    (iblk m c 0 t : S1024x512.Idx → EReal) (ix2 a j) = stagedM1 m c (ix2 r j) := by
  unfold iblk
  rw [View.read_apply]
  show V m c main_v54 _ = V m c main_v54 _
  congr 1
  funext ax; apply Fin.ext
  obtain ⟨e0, e1, -⟩ := idx_facts t
  match ax with
  | ⟨0, _⟩ => show win0_0.index t (0 : Fin 2) * 1024 + 1 * a.val = r.val; rw [e0, hr]; omega
  | ⟨1, _⟩ => show win0_0.index t (1 : Fin 2) * 512 + 1 * j.val = j.val; rw [e1]; omega

/-- Row `b` of point `t`'s m2 block is row 512·(t mod 8) + b of m2. -/
theorem blk_m2 (c : Dev nD) (t : Fin cfg0.N) (b : Fin 512) (k : Fin 512) (r : Fin 4096) (hr : r.val = t.val % 8 * 512 + b.val) :
    (iblk m c 1 t : S512x512.Idx → EReal) (ix2 b k) = stagedM2 m c (ix2 r k) := by
  unfold iblk
  rw [View.read_apply]
  show V m c main_v55 _ = V m c main_v55 _
  congr 1
  funext ax; apply Fin.ext
  obtain ⟨-, -, e2, e3, -⟩ := idx_facts t
  match ax with
  | ⟨0, _⟩ => show win0_1.index t (0 : Fin 2) * 512 + 1 * b.val = r.val; rw [e2, hr]; omega
  | ⟨1, _⟩ => show win0_1.index t (1 : Fin 2) * 512 + 1 * k.val = k.val; rw [e3]; omega

/-- Every point's gm block is gm. -/
theorem blk_gm (c : Dev nD) (t : Fin cfg0.N) (j k : Fin 512) :
    (iblk m c 2 t : S512x512.Idx → EReal) (ix2 j k) = stagedGm m c (ix2 j k) := by
  unfold iblk
  rw [View.read_apply]
  show V m c main_v56 _ = V m c main_v56 _
  congr 1
  funext ax; apply Fin.ext
  obtain ⟨-, -, -, -, e4, e5, -⟩ := idx_facts t
  match ax with
  | ⟨0, _⟩ => show win0_2.index t (0 : Fin 2) * 512 + 1 * j.val = j.val; rw [e4]; omega
  | ⟨1, _⟩ => show win0_2.index t (1 : Fin 2) * 512 + 1 * k.val = k.val; rw [e5]; omega

/-- Every point's tp block is tp. -/
theorem blk_tp (c : Dev nD) (t : Fin cfg0.N) (j k : Fin 512) :
    (iblk m c 3 t : S512x512.Idx → EReal) (ix2 j k) = stagedTp m c (ix2 j k) := by
  unfold iblk
  rw [View.read_apply]
  show V m c main_v57 _ = V m c main_v57 _
  congr 1
  funext ax; apply Fin.ext
  obtain ⟨-, -, -, -, -, -, e6, e7, -⟩ := idx_facts t
  match ax with
  | ⟨0, _⟩ => show win0_3.index t (0 : Fin 2) * 512 + 1 * j.val = j.val; rw [e6]; omega
  | ⟨1, _⟩ => show win0_3.index t (1 : Fin 2) * 512 + 1 * k.val = k.val; rw [e7]; omega

/-- The point whose block holds index `i`: row block i₀ div 1024, column block i₁ div 512. -/
def pointOf (i : S4096x4096.Idx) : Fin cfg0.N :=
  ⟨(i 0).val / 1024 * 8 + (i 1).val / 512, by
    have hN : cfg0.N = 32 := N_0
    have h0 : (i 0).val < 4096 := (i 0).isLt
    have h1 : (i 1).val < 4096 := (i 1).isLt
    omega⟩

/-- WHAT POINT `t` WRITES BACK to output 4: block `t` of the whole-array function. -/
theorem flushed4_eq (c : Dev nD) (t : Fin cfg0.N) :
    (dats m 0 c).flushed 4 t = ((cfg0.win 4).blk t).view.read (Elt Ideal) (logChain m c) := by
  rw [Cert.KernelIdeal.Value.flushed4, (outs_eq m c t).1]
  funext y
  have hN : cfg0.N = 32 := N_0
  have ht := t.isLt
  obtain ⟨-, -, -, -, -, -, -, -, e8, e9, e10, e11⟩ := idx_facts t
  have y0 : (y 0).val < 1024 := (y 0).isLt
  have y1 : (y 1).val < 512 := (y 1).isLt
  show k0_pay4 (scr0 m c t.val t.isLt) (iblk m c 1 t) y = logChain m c (((cfg0.win 4).blk t).view.emb y)
  have hy : (y : S1024x512.Idx) = ix2 (⟨(y 0).val, y0⟩ : Fin 1024) (⟨(y 1).val, y1⟩ : Fin 512) :=
    funext fun ax => Fin.ext (by match ax with | ⟨0, _⟩ => rfl | ⟨1, _⟩ => rfl)
  refine (congrArg (k0_pay4 (scr0 m c t.val t.isLt) (iblk m c 1 t)) hy).trans ?_
  unfold scr0 logChain
  exact out4_point (iblk m c 0 (rowStart t.val t.isLt)) (iblk m c 1 t) (iblk m c 2 (rowStart t.val t.isLt))
    (stagedM1 m c) (stagedM2 m c) (stagedGm m c) ⟨(y 0).val, y0⟩ ⟨(y 1).val, y1⟩ (((cfg0.win 4).blk t).view.emb y)
    (fun j => blk_m1 m c (rowStart t.val t.isLt) ⟨(y 0).val, y0⟩ j ((((cfg0.win 4).blk t).view.emb y) 0) (by
      show win0_4.index t (0 : Fin 2) * 1024 + 1 * (y 0).val = 8 * (t.val / 8) / 8 * 1024 + (y 0).val
      rw [e8]; omega))
    (fun k => blk_m2 m c t ⟨(y 1).val, y1⟩ k ((((cfg0.win 4).blk t).view.emb y) 1) (by
      show win0_4.index t (1 : Fin 2) * 512 + 1 * (y 1).val = t.val % 8 * 512 + (y 1).val
      rw [e9]; omega))
    (fun j k => blk_gm m c (rowStart t.val t.isLt) j k)

/-- An index of output 4's array is in point `t`'s block iff each coordinate is in the block's range on its axis. -/
theorem mem_blk4 (t : Fin cfg0.N) (i : S4096x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v58_0).slice (win0_4.rect t)).set ↔ _
  rw [View.set_slice_whole, Rect.mem_set_unit]
  exact Iff.rfl

/-- Every index of output 4's array lies in the block of the point of its row block and column block. -/
theorem cover4 (i : S4096x4096.Idx) : ∃ t : Fin cfg0.N, (cfg0.win 4).flush t = true ∧ i ∈ ((cfg0.win 4).blk t).view.set := by
  refine ⟨pointOf i, flush0_4 _, ?_⟩
  rw [mem_blk4]
  have h0 : (i 0).val < 4096 := (i 0).isLt
  have h1 : (i 1).val < 4096 := (i 1).isLt
  obtain ⟨-, -, -, -, -, -, -, -, e8, e9, e10, e11⟩ := idx_facts (pointOf i)
  have hv : (pointOf i).val = (i 0).val / 1024 * 8 + (i 1).val / 512 := rfl
  intro a
  match a with
  | ⟨0, _⟩ =>
    show win0_4.index (pointOf i) (0 : Fin 2) * 1024 ≤ (i 0).val ∧ (i 0).val < win0_4.index (pointOf i) (0 : Fin 2) * 1024 + 1024
    rw [e8, hv]; omega
  | ⟨1, _⟩ =>
    show win0_4.index (pointOf i) (1 : Fin 2) * 512 ≤ (i 1).val ∧ (i 1).val < win0_4.index (pointOf i) (1 : Fin 2) * 512 + 512
    rw [e9, hv]; omega

/-- Output 4's array after the run. -/
theorem final4 (c : Dev nD) : (dats m 0 c).arrAt 4 cfg0.N = logChain m c :=
  (dats m 0 c).arrAt_eq_of_cover 4 (logChain m c) (fun t _ => flushed4_eq m c t) cover4

/-- WHAT POINT `t` WRITES BACK to output 5: block `t` of the whole-array function. -/
theorem flushed5_eq (c : Dev nD) (t : Fin cfg0.N) :
    (dats m 0 c).flushed 5 t = ((cfg0.win 5).blk t).view.read (Elt Ideal) (tpChain m c) := by
  rw [Cert.KernelIdeal.Value.flushed5, (outs_eq m c t).2]
  funext y
  have hN : cfg0.N = 32 := N_0
  have ht := t.isLt
  obtain ⟨-, -, -, -, -, -, -, -, e8, e9, e10, e11⟩ := idx_facts t
  have y0 : (y 0).val < 1024 := (y 0).isLt
  have y1 : (y 1).val < 512 := (y 1).isLt
  show k0_pay3 (scr1 m c t.val t.isLt) (iblk m c 1 t) y = tpChain m c (((cfg0.win 5).blk t).view.emb y)
  have hy : (y : S1024x512.Idx) = ix2 (⟨(y 0).val, y0⟩ : Fin 1024) (⟨(y 1).val, y1⟩ : Fin 512) :=
    funext fun ax => Fin.ext (by match ax with | ⟨0, _⟩ => rfl | ⟨1, _⟩ => rfl)
  refine (congrArg (k0_pay3 (scr1 m c t.val t.isLt) (iblk m c 1 t)) hy).trans ?_
  unfold scr1 tpChain
  exact out5_point (iblk m c 0 (rowStart t.val t.isLt)) (iblk m c 1 t) (iblk m c 3 (rowStart t.val t.isLt))
    (stagedM1 m c) (stagedM2 m c) (stagedTp m c) ⟨(y 0).val, y0⟩ ⟨(y 1).val, y1⟩ (((cfg0.win 5).blk t).view.emb y)
    (fun j => blk_m1 m c (rowStart t.val t.isLt) ⟨(y 0).val, y0⟩ j ((((cfg0.win 5).blk t).view.emb y) 0) (by
      show win0_5.index t (0 : Fin 2) * 1024 + 1 * (y 0).val = 8 * (t.val / 8) / 8 * 1024 + (y 0).val
      rw [e10]; omega))
    (fun k => blk_m2 m c t ⟨(y 1).val, y1⟩ k ((((cfg0.win 5).blk t).view.emb y) 1) (by
      show win0_5.index t (1 : Fin 2) * 512 + 1 * (y 1).val = t.val % 8 * 512 + (y 1).val
      rw [e11]; omega))
    (fun j k => blk_tp m c (rowStart t.val t.isLt) j k)

/-- An index of output 5's array is in point `t`'s block iff each coordinate is in the block's range on its axis. -/
theorem mem_blk5 (t : Fin cfg0.N) (i : S4096x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v58_1).slice (win0_5.rect t)).set ↔ _
  rw [View.set_slice_whole, Rect.mem_set_unit]
  exact Iff.rfl

/-- Every index of output 5's array lies in the block of the point of its row block and column block. -/
theorem cover5 (i : S4096x4096.Idx) : ∃ t : Fin cfg0.N, (cfg0.win 5).flush t = true ∧ i ∈ ((cfg0.win 5).blk t).view.set := by
  refine ⟨pointOf i, flush0_5 _, ?_⟩
  rw [mem_blk5]
  have h0 : (i 0).val < 4096 := (i 0).isLt
  have h1 : (i 1).val < 4096 := (i 1).isLt
  obtain ⟨-, -, -, -, -, -, -, -, e8, e9, e10, e11⟩ := idx_facts (pointOf i)
  have hv : (pointOf i).val = (i 0).val / 1024 * 8 + (i 1).val / 512 := rfl
  intro a
  match a with
  | ⟨0, _⟩ =>
    show win0_5.index (pointOf i) (0 : Fin 2) * 1024 ≤ (i 0).val ∧ (i 0).val < win0_5.index (pointOf i) (0 : Fin 2) * 1024 + 1024
    rw [e10, hv]; omega
  | ⟨1, _⟩ =>
    show win0_5.index (pointOf i) (1 : Fin 2) * 512 ≤ (i 1).val ∧ (i 1).val < win0_5.index (pointOf i) (1 : Fin 2) * 512 + 512
    rw [e11, hv]; omega

/-- Output 5's array after the run. -/
theorem final5 (c : Dev nD) : (dats m 0 c).arrAt 5 cfg0.N = tpChain m c :=
  (dats m 0 c).arrAt_eq_of_cover 5 (tpChain m c) (fun t _ => flushed5_eq m c t) cover5

/-- The run, read: the two results at their whole-array functions, the two gathered results and the arguments as the
    region found them. -/
theorem run : θ_run defs (onTc (τ := τ) (main (F := Ideal))) ⟨m, fun _ => 0, ρ⟩ fun r => ∀ c : Dev nD,
      r.2.mem ((c : Thread nD τ).loc main_v58_0) = logChain m c
      ∧ r.2.mem ((c : Thread nD τ).loc main_v58_1) = tpChain m c
      ∧ r.2.mem ((c : Thread nD τ).loc main_v6) = V m c main_v6
      ∧ r.2.mem ((c : Thread nD τ).loc main_v13) = V m c main_v13
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(Cert.KernelIdeal.Value.post4 m r h c).trans (final4 m c),
      (Cert.KernelIdeal.Value.post5 m r h c).trans (final5 m c),
      (h c).2 main_v6 (Pipeline.mem_restRefs_of main_v6 (by decide) (by decide)),
      (h c).2 main_v13 (Pipeline.mem_restRefs_of main_v13 (by decide) (by decide)),
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c,
      Cert.KernelIdeal.Value.kept_main_arg5 m r h c⟩)
    (run_main m ρ)

end Cert.KernelValue

end
-- ==== Proof.KernelHost.lean ====
/-
  What the kernel's host code leaves in the arrays its call stages, and in the two gathered results.

  Before its call the kernel's @main runs the same operations as the reference — the two gathers, the Gaussian overlap gm,
  its row softmax tp — and then narrows m1, m2, gm, tp to a 16-bit float format, which on the extended reals is the
  identity.  So the four staged arrays, and the two gathered arrays it returns, are the reference's stages m1, m2, gm, tp
  of the same arguments.
-/
import proofs.«134535_j7017976562076_1_alg».proof.Proof.Gen.KernelIdeal.Frame
import proofs.«134535_j7017976562076_1_alg».proof.Proof.Gen.ReferenceIdeal.Read
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (c : Dev nD)

/-- m1 = user_mixture[user_idx], of the kernel's arguments. -/
abbrev m1 : S4096x512.Idx → EReal := Cert.ReferenceIdeal.Read.val_main_v6 (F := Ideal) (m ((c : Thread nD τ).loc main_arg0)) (m ((c : Thread nD τ).loc main_arg2))
/-- m2 = item_mixture[item_idx]. -/
abbrev m2 : S4096x512.Idx → EReal := Cert.ReferenceIdeal.Read.val_main_v13 (F := Ideal) (m ((c : Thread nD τ).loc main_arg1)) (m ((c : Thread nD τ).loc main_arg3))
/-- gm, the Gaussian overlap of the two parameter tables. -/
abbrev gm : S512x512.Idx → EReal := Cert.ReferenceIdeal.Read.val_main_v39 (F := Ideal) (m ((c : Thread nD τ).loc main_arg4)) (m ((c : Thread nD τ).loc main_arg5))
/-- tp = softmax(−gm) along rows. -/
abbrev tp : S512x512.Idx → EReal := Cert.ReferenceIdeal.Read.val_main_v57 (F := Ideal) (m ((c : Thread nD τ).loc main_arg4)) (m ((c : Thread nD τ).loc main_arg5))

theorem V_m1 : (V m c main_v6 : S4096x512.Idx → EReal) = m1 m c := by
  dsimp only [Gen.V, Gen.hostOps0]
  after_results_simp <;> rfl

theorem V_m2 : (V m c main_v13 : S4096x512.Idx → EReal) = m2 m c := by
  dsimp only [Gen.V, Gen.hostOps0]
  after_results_simp <;> rfl

theorem V_m1_staged : (V m c main_v54 : S4096x512.Idx → EReal) = m1 m c := by
  dsimp only [Gen.V, Gen.hostOps0]
  after_results_simp <;> rfl

theorem V_m2_staged : (V m c main_v55 : S4096x512.Idx → EReal) = m2 m c := by
  dsimp only [Gen.V, Gen.hostOps0]
  after_results_simp <;> rfl

theorem V_gm_staged : (V m c main_v56 : S512x512.Idx → EReal) = gm m c := by
  dsimp only [Gen.V, Gen.hostOps0]
  after_results_simp <;> rfl

theorem V_tp_staged : (V m c main_v57 : S512x512.Idx → EReal) = tp m c := by
  dsimp only [Gen.V, Gen.hostOps0]
  after_results_simp <;> rfl

end Cert.KernelHost

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«134535_j7017976562076_1_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.HostHead.lean ====
/-
  The four matrices both programs feed their matrix chains, and that their entries are real numbers.

  m1 = user_mixture[user_idx] and m2 = item_mixture[item_idx] are gathers: their entries are entries of the tables.
  gm(i, j) = exp(½·(−Σ_d log s(i,j,d) − 64·log 2π − Σ_d (mu_p(i,d) − mu_q(j,d))² / s(i,j,d))) with s = sig_p + sig_q:
  when the tables hold reals and every s is above zero, each logarithm is real, each quotient has a non-zero real divisor,
  so the exponent is real and gm is a positive real.  tp = softmax(−gm) along rows: the row maximum of reals is real, the
  shifted exponentials are positive reals, their row sum is a positive real, so the quotient is real.
  Stated over the reference's operations, one stage after another; the kernel's host code before its call is the same
  operations.
-/
import proofs.«134535_j7017976562076_1_alg».proof.Proof.Gen.ReferenceIdeal.Read
import proofs.«134535_j7017976562076_1_alg».proof.Proof.LibRealClosed
import proofs.«134535_j7017976562076_1_alg».proof.Proof.LibRealHost

noncomputable section

namespace Cert.HostHead

open Idealize.ShloMosaic Cert.LibRealClosed Cert.LibRealHost
open Cert.ReferenceIdeal Cert.ReferenceIdeal.Read
open Cert.ReferenceIdeal.Facts₀ Cert.ReferenceIdeal.Facts

/-- The float32 pattern of minus infinity. -/
theorem ofBits_neg_inf : Ideal.ofBits .f32 0xFF800000#32 = ⊥ := by simp [Ideal.ofBits, Ideal.ieee]

theorem AllPos.broadcastInDim {s t : Shape} {φ : FTy} (dims : Fin s.rank → Fin t.rank) (h : s.BroadcastsInDim t dims)
    {x : FVec Ideal s φ} (hx : AllPos x) : AllPos (φ := φ) (Idealize.ShloMosaic.broadcastInDim t dims h x) := fun _ => hx _

/-- m1: a gather of rows of the first table. -/
theorem real_m1 (x0 : IVec S4096 32) (x2 : FVec Ideal S100000x512 .f32) (h2 : AllReal x2) :
    AllReal (S := S4096x512) (φ := .f32) (val_main_v6 (F := Ideal) x0 x2) := by
  unfold val_main_v6
  exact AllReal.gather _ _ h2

/-- m2: a gather of rows of the second table. -/
theorem real_m2 (x1 : IVec S4096 32) (x3 : FVec Ideal S50000x512 .f32) (h3 : AllReal x3) :
    AllReal (S := S4096x512) (φ := .f32) (val_main_v13 (F := Ideal) x1 x3) := by
  unfold val_main_v13
  exact AllReal.gather _ _ h3

section gaussian

variable (x4 x5 : FVec Ideal S512x128 .f32) (h4 : AllReal x4) (h5 : AllReal x5)
  (hs : ∀ i, (0 : EReal) < val_main_v22 (F := Ideal) x4 x5 i)

include h4 h5

/-- s = sig_p + sig_q, broadcast to [512, 512, 64]. -/
theorem real_s : AllReal (S := S512x512x64) (φ := .f32) (val_main_v22 (F := Ideal) x4 x5) := by
  unfold val_main_v22 val_main_v20 val_main_v21 val_main_v18 val_main_v19 val_main_v15 val_main_v17
  exact AllReal.addf (AllReal.broadcastInDim _ _ (AllReal.broadcastInDim _ _ (AllReal.slice _ _ h4)))
    (AllReal.broadcastInDim _ _ (AllReal.broadcastInDim _ _ (AllReal.slice _ _ h5)))

/-- diff = mu_p − mu_q, broadcast to [512, 512, 64]. -/
theorem real_diff : AllReal (S := S512x512x64) (φ := .f32) (val_main_v27 (F := Ideal) x4 x5) := by
  unfold val_main_v27 val_main_v25 val_main_v26 val_main_v23 val_main_v24 val_main_v14 val_main_v16
  exact AllReal.subf (AllReal.broadcastInDim _ _ (AllReal.broadcastInDim _ _ (AllReal.slice _ _ h4)))
    (AllReal.broadcastInDim _ _ (AllReal.broadcastInDim _ _ (AllReal.slice _ _ h5)))

include hs

theorem pos_s : AllPos (S := S512x512x64) (φ := .f32) (val_main_v22 (F := Ideal) x4 x5) :=
  AllPos.of_pos (real_s x4 x5 h4 h5) hs

/-- logdet = Σ_d log s. -/
theorem real_logdet : AllReal (S := S512x512) (φ := .f32) (val_main_v29 (F := Ideal) x4 x5) := by
  unfold val_main_v29 val_main_v28 val_main_cst
  exact AllReal.hostReduceAdd _ _ (AllReal.hostLog (pos_s x4 x5 h4 h5 hs)) (AllReal.constant_f32 _ (by decide))

/-- maha = Σ_d diff² / s. -/
theorem real_maha : AllReal (S := S512x512) (φ := .f32) (val_main_v32 (F := Ideal) x4 x5) := by
  unfold val_main_v32 val_main_v31 val_main_v30 val_main_cst_3
  exact AllReal.hostReduceAdd _ _
    (AllReal.hostDivf (AllReal.mulf (real_diff x4 x5 h4 h5) (real_diff x4 x5 h4 h5)) (real_s x4 x5 h4 h5)
      (fun i => (pos_s x4 x5 h4 h5 hs i).ne_zero))
    (AllReal.constant_f32 _ (by decide))

/-- The exponent ½·(−logdet − 64·log 2π − maha). -/
theorem real_exponent : AllReal (S := S512x512) (φ := .f32) (val_main_v38 (F := Ideal) x4 x5) := by
  unfold val_main_v38 val_main_v37 val_main_cst_5 val_main_v36 val_main_v35 val_main_v34 val_main_cst_4 val_main_v33
  exact AllReal.mulf (AllReal.broadcastInDim _ _ (AllReal.constant_f32 _ (by decide)))
    (AllReal.subf (AllReal.subf (AllReal.hostNegf (real_logdet x4 x5 h4 h5 hs))
      (AllReal.broadcastInDim _ _ (AllReal.constant_f32 _ (by decide)))) (real_maha x4 x5 h4 h5 hs))

/-- gm, the Gaussian overlap: the exponential of a real. -/
theorem pos_gm : AllPos (S := S512x512) (φ := .f32) (val_main_v39 (F := Ideal) x4 x5) := by
  unfold val_main_v39
  exact AllPos.hostExp (real_exponent x4 x5 h4 h5 hs)

theorem real_gm : AllReal (S := S512x512) (φ := .f32) (val_main_v39 (F := Ideal) x4 x5) :=
  (pos_gm x4 x5 h4 h5 hs).allReal

/-- −gm·β with β = 1, the softmax's logits. -/
theorem real_logits : AllReal (S := S512x512) (φ := .f32) (val_main_v46 (F := Ideal) x4 x5) := by
  unfold val_main_v46 val_main_v45 val_main_cst_6 val_main_v44
  exact AllReal.mulf (AllReal.hostNegf (real_gm x4 x5 h4 h5 hs)) (AllReal.broadcastInDim _ _ (AllReal.constant_f32 _ (by decide)))

/-- The row maximum of the logits (a maximum from minus infinity over 512 reals, then once more against minus infinity). -/
theorem real_rowmax : AllReal (S := S512) (φ := .f32) (val_main_v49 (F := Ideal) x4 x5) := by
  have h47 : AllReal (S := S512) (φ := .f32) (val_main_v47 (F := Ideal) x4 x5) := by
    unfold val_main_v47 val_main_cst_7
    exact AllReal.hostReduceMax_single reducesTo_S512x512_S512_d1 (by decide) h_S_ (by decide) (real_logits x4 x5 h4 h5 hs)
      (fun _ => ofBits_neg_inf)
  intro i
  show IsReal (max (Ideal.ofBits .f32 0xFF800000#32) (val_main_v47 (F := Ideal) x4 x5 i))
  rw [ofBits_neg_inf, max_eq_right bot_le]
  exact h47 i

/-- The shifted exponentials exp(logit − row maximum). -/
theorem pos_shifted : AllPos (S := S512x512) (φ := .f32) (val_main_v53 (F := Ideal) x4 x5) := by
  unfold val_main_v53 val_main_v52 val_main_v51 val_main_v50
  exact AllPos.hostExp (AllReal.subf (real_logits x4 x5 h4 h5 hs)
    (AllReal.broadcastInDim _ _ (AllReal.broadcastInDim _ _ (real_rowmax x4 x5 h4 h5 hs))))

/-- Their row sums. -/
theorem pos_rowsum : AllPos (S := S512) (φ := .f32) (val_main_v54 (F := Ideal) x4 x5) := by
  unfold val_main_v54 val_main_cst_9
  exact AllPos.hostReduceAdd_single reducesTo_S512x512_S512_d1 (by decide) h_S_ (by decide) (pos_shifted x4 x5 h4 h5 hs)
    (fun _ => Ideal.ofBits_zero_f32)

/-- tp = softmax(−gm) along rows. -/
theorem real_tp : AllReal (S := S512x512) (φ := .f32) (val_main_v57 (F := Ideal) x4 x5) := by
  have hden : AllPos (S := S512x512) (φ := .f32) (val_main_v56 (F := Ideal) x4 x5) := by
    unfold val_main_v56 val_main_v55
    exact AllPos.broadcastInDim _ _ (AllPos.broadcastInDim _ _ (pos_rowsum x4 x5 h4 h5 hs))
  unfold val_main_v57
  exact AllReal.hostDivf (pos_shifted x4 x5 h4 h5 hs).allReal hden.allReal (fun i => (hden i).ne_zero)

end gaussian

end Cert.HostHead

end
-- ==== Proof.PreDecode.lean ====
/-
  What the precondition says of the inputs.

  The precondition is a conjunction of five reductions by "and": for each of the four float inputs, that every entry's
  absolute value is below plus infinity — on the extended reals, that the entry is a real number — and that every entry of
  s = sig_p[:, None, :] + sig_q[None, :, :], the argument of the reference's logarithm, is above zero.
-/
import proofs.«134535_j7017976562076_1_alg».proof.Pre_finite_inputs
import proofs.«134535_j7017976562076_1_alg».proof.Proof.Gen.Pre_finite_inputs
import proofs.«134535_j7017976562076_1_alg».proof.Proof.LibRealClosed
import Idealize.ShloMosaic.Lib.ReduceAll
import Idealize.ShloMosaic.Lib.ValueIdx
import Idealize.ShloMosaic.PureOps.Ideal.Laws

noncomputable section

namespace Cert.PreDecode

open Idealize.ShloMosaic Cert.LibRealClosed Cert.Pre_finite_inputs

instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The float32 pattern of plus infinity. -/
theorem ofBits_inf : Ideal.ofBits .f32 0x7F800000#32 = ⊤ := by simp [Ideal.ofBits, Ideal.ieee]

/-- An extended real whose absolute value compares below plus infinity is a real number. -/
theorem real_of_abs_lt {x : EReal} (h : Ideal.cmp .olt (max x (-x)) (Ideal.ofBits .f32 0x7F800000#32) = 1#1) : IsReal x := by
  rw [ofBits_inf] at h
  simp only [Ideal.cmp, ofBool_eq_one, decide_eq_true_eq] at h
  exact isReal_of_abs_lt_top h

/-- An extended real that compares above the float zero is above zero. -/
theorem pos_of_gt {x : EReal} (h : Ideal.cmp .ogt x (Ideal.ofBits .f32 0x00000000#32) = 1#1) : (0 : EReal) < x := by
  rw [Ideal.ofBits_zero_f32] at h
  simp only [Ideal.cmp, ofBool_eq_one, decide_eq_true_eq] at h
  exact h

/-- The argument of the reference's logarithm: s(i, j, d) = sig_p(i, d) + sig_q(j, d), the second halves of the two
    parameter tables' columns, each broadcast along the other table's row axis. -/
def sigmaSum (a4 a5 : FVec Ideal S512x128 .f32) : FVec Ideal S512x512x64 .f32 :=
  addf (broadcastInDim S512x512x64 ![0, 1, 2] Facts.bcast_S512x1x64_S512x512x64_0_1_2
      (broadcastInDim S512x1x64 ![0, 2] Facts.bcast_S512x64_S512x1x64_0_2 (extractStridedSlice S512x64 ![0, 64] a4 Facts.slices_S512x128_S512x64_0_64)))
    (broadcastInDim S512x512x64 ![0, 1, 2] Facts.bcast_S1x512x64_S512x512x64_0_1_2
      (broadcastInDim S1x512x64 ![1, 2] Facts.bcast_S512x64_S1x512x64_1_2 (extractStridedSlice S512x64 ![0, 64] a5 Facts.slices_S512x128_S512x64_0_64)))

/-- The precondition, read back: the four float inputs hold real numbers and every entry of s is above zero. -/
theorem decode (a0 a1 : IVec S4096 32) (a2 : FVec Ideal S100000x512 .f32) (a3 : FVec Ideal S50000x512 .f32)
    (a4 a5 : FVec Ideal S512x128 .f32) (h : fn (F := Ideal) a0 a1 a2 a3 a4 a5 = fun _ => 1#1) :
    AllReal a2 ∧ AllReal a3 ∧ AllReal a4 ∧ AllReal a5 ∧ ∀ i, (0 : EReal) < sigmaSum a4 a5 i := by
  have h0 := congrFun h ValueIdx.ix0
  dsimp only [fn, fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun i => ?_, fun i => ?_⟩
  · exact real_of_abs_lt (Host.reduce_andi_all _ _ _ _ _ h1 i)
  · exact real_of_abs_lt (Host.reduce_andi_all _ _ _ _ _ h2 i)
  · exact real_of_abs_lt (Host.reduce_andi_all _ _ _ _ _ h3 i)
  · exact real_of_abs_lt (Host.reduce_andi_all _ _ _ _ _ h4 i)
  · exact pos_of_gt (Host.reduce_andi_all _ _ _ _ _ h5 i)

end Cert.PreDecode

end
-- ==== Proof.Bridge.lean ====
/-
  The bridge: under the precondition the kernel's two result arrays are the reference's.

  The precondition makes the four float inputs real and every s = sig_p + sig_q positive, so m1, m2 (gathered rows), gm
  (an exponential of a real) and tp (a quotient of a positive real by a positive real) have real entries.  With real entries
  (m1·g)·m2ᵀ = m1·(g·m2ᵀ) entry by entry, for g = gm and g = tp: the kernel's left grouping is the reference's right grouping.
-/
import proofs.«134535_j7017976562076_1_alg».proof.Proof.KernelValue
import proofs.«134535_j7017976562076_1_alg».proof.Proof.KernelHost
import proofs.«134535_j7017976562076_1_alg».proof.Proof.HostHead
import proofs.«134535_j7017976562076_1_alg».proof.Proof.PreDecode
import proofs.«134535_j7017976562076_1_alg».proof.Proof.ChainSpec

noncomputable section

namespace Cert.Bridge

open Idealize.ShloMosaic Idealize.ShloMosaic.TcCoe Idealize.SL.Sem
open Cert.KernelIdeal Cert.KernelIdeal.Gen Cert.ChainSpec Cert.LibRealClosed Cert.KernelHost

variable (m : (ℓ : Loc nD τ sig) → Buf (Elt Ideal) ℓ) (c : Dev nD)

/-- The first result with the staged arrays named: log((m1·gm)·m2ᵀ). -/
theorem logChain_eq : Cert.KernelValue.logChain m c = fun i => Ideal.log (leftChain (m1 m c) (gm m c) (m2 m c) i) := by
  unfold Cert.KernelValue.logChain
  show (fun i => Ideal.log (leftChain (V m c main_v54) (V m c main_v56) (V m c main_v55) i)) = _
  rw [V_m1_staged, V_gm_staged, V_m2_staged]

/-- The second result with the staged arrays named: (m1·tp)·m2ᵀ. -/
theorem tpChain_eq : Cert.KernelValue.tpChain m c = leftChain (m1 m c) (tp m c) (m2 m c) := by
  unfold Cert.KernelValue.tpChain
  show leftChain (V m c main_v54) (V m c main_v57) (V m c main_v55) = _
  rw [V_m1_staged, V_tp_staged, V_m2_staged]

variable (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1)

include hpre

theorem real_m1 : ∀ i, IsReal (m1 m c i) := by
  obtain ⟨r2, -⟩ := Cert.PreDecode.decode _ _ _ _ _ _ hpre
  exact Cert.HostHead.real_m1 _ _ r2

theorem real_m2 : ∀ i, IsReal (m2 m c i) := by
  obtain ⟨-, r3, -⟩ := Cert.PreDecode.decode _ _ _ _ _ _ hpre
  exact Cert.HostHead.real_m2 _ _ r3

theorem real_gm : ∀ i, IsReal (gm m c i) := by
  obtain ⟨-, -, r4, r5, hs⟩ := Cert.PreDecode.decode _ _ _ _ _ _ hpre
  exact Cert.HostHead.real_gm _ _ r4 r5 hs

theorem real_tp : ∀ i, IsReal (tp m c i) := by
  obtain ⟨-, -, r4, r5, hs⟩ := Cert.PreDecode.decode _ _ _ _ _ _ hpre
  exact Cert.HostHead.real_tp _ _ r4 r5 hs

/-- The kernel's first result is log(m1·(gm·m2ᵀ)). -/
theorem out1 : Cert.KernelValue.logChain m c = fun i => Ideal.log (rightChain (m1 m c) (gm m c) (m2 m c) i) := by
  rw [logChain_eq, leftChain_eq_rightChain _ _ _ (real_m1 m c hpre) (real_gm m c hpre) (real_m2 m c hpre)]

/-- The kernel's second result is m1·(tp·m2ᵀ). -/
theorem out2 : Cert.KernelValue.tpChain m c = rightChain (m1 m c) (tp m c) (m2 m c) := by
  rw [tpChain_eq, leftChain_eq_rightChain _ _ _ (real_m1 m c hpre) (real_tp m c hpre) (real_m2 m c hpre)]

end Cert.Bridge

end
-- ==== Proof.RefValue.lean ====
/-
  The reference's two matrix results, entry by entry: log(m1·(gm·m2ᵀ)) and m1·(tp·m2ᵀ) are the right-grouped chain of the
  gathered rows m1, m2 with gm and with tp.  Each host product is a sum over its one contracted axis; the transpose of m2
  swaps its two coordinates.
-/
import proofs.«134535_j7017976562076_1_alg».proof.Proof.Gen.ReferenceIdeal.Read
import proofs.«134535_j7017976562076_1_alg».proof.Proof.ChainSpec

noncomputable section

open scoped BigOperators

namespace Cert.RefValue

open Idealize.ShloMosaic Idealize.ShloMosaic.ValueIdx Cert.ChainSpec
open Cert.ReferenceIdeal Cert.ReferenceIdeal.Read

theorem lidx42 (i : S4096x4096.Idx) (k : Fin 512) : lidx_main_v42 i k = ix2 (i 0) k :=
  funext fun a => Fin.ext (by match a with | ⟨0, _⟩ => rfl | ⟨1, _⟩ => rfl)

theorem lidx41 (i : S4096x4096.Idx) (j k : Fin 512) : lidx_main_v41 (ridx_main_v42 i j) k = ix2 j k :=
  funext fun a => Fin.ext (by match a with | ⟨0, _⟩ => rfl | ⟨1, _⟩ => rfl)

theorem ridx41 (i : S4096x4096.Idx) (j k : Fin 512) : idx_main_v40 (ridx_main_v41 (ridx_main_v42 i j) k) = ix2 (i 1) k :=
  funext fun a => Fin.ext (by match a with | ⟨0, _⟩ => rfl | ⟨1, _⟩ => rfl)

theorem lidx60 (i : S4096x4096.Idx) (k : Fin 512) : lidx_main_v60 i k = ix2 (i 0) k :=
  funext fun a => Fin.ext (by match a with | ⟨0, _⟩ => rfl | ⟨1, _⟩ => rfl)

theorem lidx59 (i : S4096x4096.Idx) (j k : Fin 512) : lidx_main_v59 (ridx_main_v60 i j) k = ix2 j k :=
  funext fun a => Fin.ext (by match a with | ⟨0, _⟩ => rfl | ⟨1, _⟩ => rfl)

theorem ridx59 (i : S4096x4096.Idx) (j k : Fin 512) : idx_main_v58 (ridx_main_v59 (ridx_main_v60 i j) k) = ix2 (i 1) k :=
  funext fun a => Fin.ext (by match a with | ⟨0, _⟩ => rfl | ⟨1, _⟩ => rfl)

variable (x0 x1 : IVec S4096 32) (x2 : FVec Ideal S100000x512 .f32) (x3 : FVec Ideal S50000x512 .f32) (x4 x5 : FVec Ideal S512x128 .f32)

/-- The first result: log of the right-grouped chain with gm. -/
theorem out1_eq : val_main_v43 (F := Ideal) x0 x1 x2 x3 x4 x5
    = fun i => Ideal.log (rightChain (val_main_v6 (F := Ideal) x0 x2) (val_main_v39 (F := Ideal) x4 x5) (val_main_v13 (F := Ideal) x1 x3) i) := by
  funext i
  rw [val_main_v43_apply, val_main_v42_apply]
  simp only [val_main_v41_apply, val_main_v40_apply, lidx42, lidx41, ridx41]
  rfl

/-- The second result: the right-grouped chain with tp. -/
theorem out2_eq : val_main_v60 (F := Ideal) x0 x1 x2 x3 x4 x5
    = rightChain (val_main_v6 (F := Ideal) x0 x2) (val_main_v57 (F := Ideal) x4 x5) (val_main_v13 (F := Ideal) x1 x3) := by
  funext i
  rw [val_main_v60_apply]
  simp only [val_main_v59_apply, val_main_v58_apply, lidx60, lidx59, ridx59]
  rfl

end Cert.RefValue

end
-- ==== Proof.lean ====
/-
  The certificate of the matrix-chain kernel against its jnp reference, on the extended reals.

  Both programs gather m1 = user_mixture[user_idx] and m2 = item_mixture[item_idx], build the Gaussian overlap gm of the two
  parameter tables and its row softmax tp, and return (log(m1·gm·m2ᵀ), m1·tp·m2ᵀ, m1, m2).  The reference multiplies from
  the right, m1·(g·m2ᵀ); the kernel, block by block over a 4 × 8 grid, multiplies from the left, (m1·g)·m2ᵀ, keeping the
  row block of m1·g in a scratch buffer across a row block's eight column blocks, with its operands narrowed to a 16-bit float
  format, which on the extended reals changes nothing.  The two groupings are one matrix when the entries are real numbers:
  the precondition gives that for the inputs, and for gm and tp because every s = sig_p + sig_q, the argument of the
  reference's logarithm, is above zero, which keeps log s, the quotient by s, the exponentials and the softmax's denominator real.

  The frames of the two kernel programs are the generated ones; the reference's frame is its generated run with the results
  dropped; the idealization rewrote nothing.  The modules: the precondition read back (PreDecode), realness of the four matrices
  (HostHead), the body's stored values and the carried scratch (KernelPieces, KernelInv, KernelPay), the blocks assembled into
  the two result arrays (KernelValue), the kernel's host code read as the reference's (KernelHost), the reference's results
  entry by entry (RefValue), the re-association (ChainSpec, LibChainAssoc) and the bridge (Bridge).
-/
import proofs.«134535_j7017976562076_1_alg».proof.Defs
import proofs.«134535_j7017976562076_1_alg».proof.Proof.Gen.Kernel
import proofs.«134535_j7017976562076_1_alg».proof.Proof.Gen.Kernel.Skeleton
import proofs.«134535_j7017976562076_1_alg».proof.Proof.Gen.Kernel.Launch
import proofs.«134535_j7017976562076_1_alg».proof.Proof.Gen.Kernel.Points
import proofs.«134535_j7017976562076_1_alg».proof.Proof.Gen.Kernel.Frame
import proofs.«134535_j7017976562076_1_alg».proof.Proof.Gen.KernelIdeal
import proofs.«134535_j7017976562076_1_alg».proof.Proof.Gen.KernelIdeal.Skeleton
import proofs.«134535_j7017976562076_1_alg».proof.Proof.Gen.KernelIdeal.Launch
import proofs.«134535_j7017976562076_1_alg».proof.Proof.Gen.KernelIdeal.Points
import proofs.«134535_j7017976562076_1_alg».proof.Proof.Gen.KernelIdeal.Frame
import proofs.«134535_j7017976562076_1_alg».proof.Proof.Gen.ReferenceIdeal
import proofs.«134535_j7017976562076_1_alg».proof.Proof.Gen.KernelIdeal.Value
import proofs.«134535_j7017976562076_1_alg».proof.Proof.Gen.ReferenceIdeal.Run
import proofs.«134535_j7017976562076_1_alg».proof.Proof.Gen.ReferenceIdeal.Read
import proofs.«134535_j7017976562076_1_alg».proof.Proof.Gen.Pre_finite_inputs
import proofs.«134535_j7017976562076_1_alg».proof.Proof.Bridge
import proofs.«134535_j7017976562076_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both programs end with log(m1·(gm·m2ᵀ)), m1·(tp·m2ᵀ), m1 and m2 of the arguments they agree on. -/
theorem algebraic : Cert.algebraic_KernelIdeal_ReferenceIdeal := by
  intro m ρ m' ρ' hpre hagree
  refine ⟨fun c => Cert.KernelValue.logChain m c, fun c => Cert.KernelValue.tpChain m c,
    fun c => Cert.KernelIdeal.Gen.V m c Cert.KernelIdeal.main_v6, fun c => Cert.KernelIdeal.Gen.V m c Cert.KernelIdeal.main_v13,
    Cert.KernelValue.run m ρ, ?_⟩
  refine (θ_run Cert.ReferenceIdeal.defs _ _).mono (fun _ h c => ?_) (Cert.ReferenceIdeal.Value.run (F := Ideal) m' ρ')
  obtain ⟨h43, h60, h6, h13, hargs⟩ := h c
  obtain ⟨ha0, ha1, ha2, ha3, ha4, ha5⟩ := hagree c
  refine ⟨?_, ?_, ?_, ?_, hargs⟩
  · rw [h43, Cert.ReferenceIdeal.Read.val_main_v43_eq, Cert.RefValue.out1_eq, ha0, ha1, ha2, ha3, ha4, ha5]
    exact (Cert.Bridge.out1 m c (hpre c)).symm
  · rw [h60, Cert.ReferenceIdeal.Read.val_main_v60_eq, Cert.RefValue.out2_eq, ha0, ha1, ha2, ha3, ha4, ha5]
    exact (Cert.Bridge.out2 m c (hpre c)).symm
  · rw [h6, Cert.ReferenceIdeal.Read.val_main_v6_eq, ha0, ha2]
    exact (Cert.KernelHost.V_m1 m c).symm
  · rw [h13, Cert.ReferenceIdeal.Read.val_main_v13_eq, ha1, ha3]
    exact (Cert.KernelHost.V_m2 m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
